-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x1 : Shape := ⟨2, ![50000, 1]⟩
abbrev S500x128 : Shape := ⟨2, ![500, 128]⟩
abbrev S128x128 : Shape := ⟨2, ![128, 128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S500x128 : S_.BroadcastsInDim S500x128 (![] : Fin 0 → Fin S500x128.rank)
  reducesTo_S500x128_S_d0_1 : S500x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S50000x128 .f32) (main_arg1 : FVec F S50000x1 .f32) (main_arg2 : FVec F S500x128 .f32) (main_arg3 : FVec F S128x128 .f32) (main_arg4 : FVec F S128x128 .f32) (main_arg5 : FVec F S128x128 .f32) (main_arg6 : IVec S600000 32) (main_arg7 : IVec S600000 32) (main_arg8 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S500x128 .f32 := Host.absf main_arg2
  let main_cst_2 : FVec F S_ .f32 := constant S_ .f32 0x7F800000#32
  let main_v10 : FVec F S500x128 .f32 := broadcastInDim S500x128 ![] bcast_S_S500x128 main_cst_2
  let main_v11 : IVec S500x128 1 := cmpf .olt main_v9 main_v10
  let main_c_3 : IVec S_ 1 := constantI S_ 1 1#1
  let main_v12 : IVec S_ 1 := (fun x v => Host.reduce IntOp.andi x v reducesTo_S500x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S50000x128 : Shape := ⟨2, ![50000, 128]⟩
abbrev S50000x1 : Shape := ⟨2, ![50000, 1]⟩
abbrev S500x128 : Shape := ⟨2, ![500, 128]⟩
abbrev S128x128 : Shape := ⟨2, ![128, 128]⟩
abbrev S600000 : Shape := ⟨1, ![600000]⟩
abbrev S10000x128 : Shape := ⟨2, ![10000, 128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S128x256 : Shape := ⟨2, ![128, 256]⟩
abbrev S2000x128 : Shape := ⟨2, ![2000, 128]⟩
abbrev S2000x1 : Shape := ⟨2, ![2000, 1]⟩
abbrev S2000x256 : Shape := ⟨2, ![2000, 256]⟩

abbrev nBuf : Space → Nat
  | .hbm => 49
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S500x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S128x128, .bf16⟩
  | .hbm, ⟨10, _⟩ => ⟨S50000x128, .f32⟩
  | .hbm, ⟨11, _⟩ => ⟨S500x128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S_, .f32⟩
  | .hbm, ⟨36, _⟩ => ⟨S600000, .f32⟩
  | .hbm, ⟨37, _⟩ => ⟨S_, .f32⟩
  | .hbm, ⟨38, _⟩ => ⟨S50000, .f32⟩
  | .hbm, ⟨39, _⟩ => ⟨S600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .i1⟩
  | .hbm, ⟨44, _⟩ => ⟨S50000, .f32⟩
  | .hbm, ⟨45, _⟩ => ⟨S50000x1, .f32⟩
  | .hbm, ⟨46, _⟩ => ⟨S128x256, .f32⟩
  | .hbm, ⟨47, _⟩ => ⟨S128x256, .bf16⟩
  | .hbm, ⟨48, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S128x256, .bf16⟩
  | .local _ .vmem, ⟨14, _⟩ => ⟨S2000x128, .f32⟩
  | .local _ .vmem, ⟨15, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  concatenates_S128x128_S128x128_S128x256_d1 : Shape.Concatenates [S128x128, S128x128] S128x256 1
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S2000x256_o0_0_S2000x128 : S2000x256.Slices ![0, 0] S2000x128
  slices_S2000x256_o0_128_S2000x128 : S2000x256.Slices ![0, 128] S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S2000x128_S2000x128 : S2000x128.ShapeCasts S2000x128
  dot_S10000x128_S128x128_S10000x128_1_0_0_1_n_n_wf : DotDims.WF S10000x128 S128x128 S10000x128 [1] [0] [0] [1] [] []
  dot_S500x128_S128x128_S500x128_1_0_0_1_n_n_wf : DotDims.WF S500x128 S128x128 S500x128 [1] [0] [0] [1] [] []
  gather_S50000x128_S600000x1_S600000x128_1_0_n_n_0_1_1128_wf : GatherDims.WF S50000x128 S600000x1 S600000x128 [1] [0] [] [0] [] 1 ![1, 128]
  gather_S500x128_S600000x1_S600000x128_1_0_n_n_0_1_1128_wf : GatherDims.WF S500x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .bf16 = 32 ∨ (Rect.block (s := S128x256) S128x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S500x128_S600000x1_S600000x128_1_0_n_n_0_1_1128 : GatherDims S500x128 S600000x1 S600000x128 where
  offsetDims := [1]
  collapsedSliceDims := [0]
  operandBatchingDims := []
  startIndicesBatchingDims := []
  startIndexMap := [0]
  indexVectorDim := 1
  sliceSizes := ![1, 128]
  wf := gather_S500x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x1 : Shape := ⟨2, ![50000, 1]⟩
abbrev S500x128 : Shape := ⟨2, ![500, 128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S500x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S600000x128, .f32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S600000, .f32⟩
  | .hbm, ⟨37, _⟩ => ⟨S_, .f32⟩
  | .hbm, ⟨38, _⟩ => ⟨S50000, .f32⟩
  | .hbm, ⟨39, _⟩ => ⟨S600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .i1⟩
  | .hbm, ⟨44, _⟩ => ⟨S50000x1, .i1⟩
  | .hbm, ⟨45, _⟩ => ⟨S50000x128, .f32⟩
  | .hbm, ⟨46, _⟩ => ⟨S50000x128, .f32⟩
  | .hbm, ⟨47, _⟩ => ⟨S50000x128, .i1⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_call1_cst : Ref sig .tc := ⟨.hbm, 50, rfl⟩
abbrev main_call1_v0 : Ref sig .tc := ⟨.hbm, 51, rfl⟩
abbrev main_v32 : Ref sig .tc := ⟨.hbm, 52, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  gather_S50000x128_S600000x1_S600000x128_1_0_n_n_0_1_1128_wf : GatherDims.WF S50000x128 S600000x1 S600000x128 [1] [0] [] [0] [] 1 ![1, 128]
  gather_S500x128_S600000x1_S600000x128_1_0_n_n_0_1_1128_wf : GatherDims.WF S500x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S500x128_S600000x1_S600000x128_1_0_n_n_0_1_1128 : GatherDims S500x128 S600000x1 S600000x128 where
  offsetDims := [1]
  collapsedSliceDims := [0]
  operandBatchingDims := []
  startIndicesBatchingDims := []
  startIndexMap := [0]
  indexVectorDim := 1
  sliceSizes := ![1, 128]
  wf := gather_S500x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  @main is four segments: the host operations before the first launch, the first launch (h times the neighbour
  weight, block by block), the host operations between the launches (the relation embeddings' product, the two gathers,
  their sum, the two accumulating scatters, the mask, the joined self-loop weights) and the second launch (the node update).
  The buffer contents at each boundary are a fold from the launch memory: after a stretch of host operations, those
  operations applied; after a launch, the launch's arrays at what its write-backs leave and every other buffer as it was.
  Every weakly fair execution terminates, nothing faulting, with every unscoped buffer at the last boundary's contents
  `W4`: so the result buffer holds `W4` at the result, and each argument its launch contents.
-/
import proofs.«147541_j47777216201145_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.KernelTerms.lean ====
/-
  The values the kernel's host program computes between its two launches, as functions of the arrays they read.

  * `srcCol`, `relCol`: the source-node and the relation indices, a negative one wrapped once by the extent (50000 nodes,
    500 relations), as a column; `dstCol`: the destination indices as a column, unwrapped.
  * `edgeMsg hW emb W src rel`: per edge, row `src` of the node product `hW` plus row `rel` of the relation product
    `emb · W`.
  * `agg`: the edge messages accumulated into their destination nodes, from zero.
  * `maskCol`: per node, 1 where the count of incoming edges (ones accumulated into destination nodes) is positive, else 0,
    as a column.
  * `cat`: the two self-loop weights side by side, 128 × 256; `w16`: the neighbour weight. Both pass through a change of
    float format, which the extended reals do not see.
-/
import proofs.«147541_j47777216201145_2_alg».proof.KernelIdeal
import proofs.«147541_j47777216201145_2_alg».proof.Proof.Gen.KernelIdeal

noncomputable section

namespace Cert.KernelIdeal.Terms

open Cert.KernelIdeal Cert.KernelIdeal.Gen Idealize.ShloMosaic

variable {F : FTy → Type} [FloatOps F]

/-- The source-node indices, a negative one wrapped by 50000, as a column. -/
def srcCol (x6 : IVec S600000 32) : IVec S600000x1 32 :=
  broadcastInDim S600000x1 ![0] bcast_S600000_S600000x1_0
    (select (cmpi .slt x6 (broadcastInDim S600000 ![] bcast_S_S600000 (constantI S_ 32 0#32)))
      (addi x6 (broadcastInDim S600000 ![] bcast_S_S600000 (constantI S_ 32 50000#32))) x6)

/-- The relation indices, a negative one wrapped by 500, as a column. -/
def relCol (x8 : IVec S600000 32) : IVec S600000x1 32 :=
  broadcastInDim S600000x1 ![0] bcast_S600000_S600000x1_0
    (select (cmpi .slt x8 (broadcastInDim S600000 ![] bcast_S_S600000 (constantI S_ 32 0#32)))
      (addi x8 (broadcastInDim S600000 ![] bcast_S_S600000 (constantI S_ 32 500#32))) x8)

/-- The destination-node indices as a column. -/
def dstCol (x7 : IVec S600000 32) : IVec S600000x1 32 :=
  broadcastInDim S600000x1 ![0] bcast_S600000_S600000x1_0 x7

/-- The relation embeddings times the neighbour weight. -/
def embW (x2 : FVec F S500x128 .f32) (x3 : FVec F S128x128 .f32) : FVec F S500x128 .f32 :=
  Host.dotGeneral dot_S500x128_S128x128_S500x128_1_0_0_1_n_n none x2 x3

/-- Per edge: the source node's row of the node product plus the relation's row of the relation product. -/
def edgeMsg (hW : FVec F S50000x128 .f32) (x2 : FVec F S500x128 .f32) (x3 : FVec F S128x128 .f32)
    (x6 x8 : IVec S600000 32) : FVec F S600000x128 .f32 :=
  addf (Host.gather gather_S50000x128_S600000x1_S600000x128_1_0_n_n_0_1_1128 hW (srcCol x6))
    (Host.gather gather_S500x128_S600000x1_S600000x128_1_0_n_n_0_1_1128 (embW x2 x3) (relCol x8))

/-- The edge messages accumulated into their destination nodes. -/
def agg (hW : FVec F S50000x128 .f32) (x2 : FVec F S500x128 .f32) (x3 : FVec F S128x128 .f32)
    (x6 x7 x8 : IVec S600000 32) : FVec F S50000x128 .f32 :=
  Host.scatterAdd scatter_S50000x128_S600000x1_S600000x128_1_0_0_1
    (broadcastInDim S50000x128 ![] bcast_S_S50000x128 (constant S_ .f32 0x00000000#32)) (dstCol x7) (edgeMsg hW x2 x3 x6 x8)

/-- The count of incoming edges per node. -/
def inDeg (x7 : IVec S600000 32) : FVec F S50000 .f32 :=
  Host.scatterAdd scatter_S50000_S600000x1_S600000_n_0_0_1
    (broadcastInDim S50000 ![] bcast_S_S50000 (constant S_ .f32 0x00000000#32)) (dstCol x7)
    (broadcastInDim S600000 ![] bcast_S_S600000 (constant S_ .f32 0x3F800000#32))

/-- One where a node has an incoming edge, zero elsewhere, as a column. -/
def maskCol (x7 : IVec S600000 32) : FVec F S50000x1 .f32 :=
  broadcastInDim S50000x1 ![0] bcast_S50000_S50000x1_0
    (uitofp .f32 (cmpf .ogt (inDeg (F := F) x7) (broadcastInDim S50000 ![] bcast_S_S50000 (constant S_ .f32 0x00000000#32))))

/-- The two self-loop weights side by side. -/
def cat (x4 x5 : FVec F S128x128 .f32) : FVec F S128x256 .bf16 :=
  truncf .bf16 (concatenate S128x256 1 [⟨S128x128, x4⟩, ⟨S128x128, x5⟩] concatenates_S128x128_S128x128_S128x256_d1) bitsLt_bf16_f32

/-- The neighbour weight in the launch's float format. -/
def w16 (x3 : FVec F S128x128 .f32) : FVec F S128x128 .bf16 := truncf .bf16 x3 bitsLt_bf16_f32

end Cert.KernelIdeal.Terms

end
-- ==== Proof.HostStretch.lean ====
/-
  The buffer contents the two launches are entered at, as functions of the launch memory.

  Before the first launch the host has only put the neighbour weight into the launch's float format; the first launch
  writes its result array and nothing else; between the launches the host computes, from that array and the arguments, the
  aggregate, the mask column and the joined self-loop weights; no host operation and no launch writes an argument array.
-/
import proofs.«147541_j47777216201145_2_alg».proof.Proof.Gen.KernelIdeal.Frame
import proofs.«147541_j47777216201145_2_alg».proof.Proof.KernelTerms

set_option maxRecDepth 16384

noncomputable section

namespace Cert.KernelIdeal.Named

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat)

variable {F : FTy → Type} [FloatOps F]
variable (m : (ℓ : Loc nD τ sig) → Buf (Elt F) ℓ) (ρ : Dev nD → PrngReg)

/-! ## Before the first launch -/

theorem W1_arg0 (c : Dev nD) : W1 m ρ c (Proc.devRef .tc main_arg0) = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0))

theorem W1_arg1 (c : Dev nD) : W1 m ρ c (Proc.devRef .tc main_arg1) = m ((c : Thread nD τ).loc main_arg1) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg1) = W0 m ρ c (Proc.devRef .tc main_arg1))

theorem W1_arg2 (c : Dev nD) : W1 m ρ c (Proc.devRef .tc main_arg2) = m ((c : Thread nD τ).loc main_arg2) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg2) = W0 m ρ c (Proc.devRef .tc main_arg2))

theorem W1_arg3 (c : Dev nD) : W1 m ρ c (Proc.devRef .tc main_arg3) = m ((c : Thread nD τ).loc main_arg3) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg3) = W0 m ρ c (Proc.devRef .tc main_arg3))

theorem W1_arg4 (c : Dev nD) : W1 m ρ c (Proc.devRef .tc main_arg4) = m ((c : Thread nD τ).loc main_arg4) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg4) = W0 m ρ c (Proc.devRef .tc main_arg4))

theorem W1_arg5 (c : Dev nD) : W1 m ρ c (Proc.devRef .tc main_arg5) = m ((c : Thread nD τ).loc main_arg5) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg5) = W0 m ρ c (Proc.devRef .tc main_arg5))

theorem W1_arg6 (c : Dev nD) : W1 m ρ c (Proc.devRef .tc main_arg6) = m ((c : Thread nD τ).loc main_arg6) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg6) = W0 m ρ c (Proc.devRef .tc main_arg6))

theorem W1_arg7 (c : Dev nD) : W1 m ρ c (Proc.devRef .tc main_arg7) = m ((c : Thread nD τ).loc main_arg7) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg7) = W0 m ρ c (Proc.devRef .tc main_arg7))

theorem W1_arg8 (c : Dev nD) : W1 m ρ c (Proc.devRef .tc main_arg8) = m ((c : Thread nD τ).loc main_arg8) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg8) = W0 m ρ c (Proc.devRef .tc main_arg8))

/-- The first launch finds the neighbour weight in its float format. -/
theorem V1_v0 (c : Dev nD) : V1 m ρ c main_v0 = Terms.w16 (m ((c : Thread nD τ).loc main_arg3)) := by
  show StableHlo.after hostOps0 (W0 m ρ c) (Proc.devRef .tc main_v0) = _
  after_results
  rfl

theorem V1_arg0 (c : Dev nD) : V1 m ρ c main_arg0 = m ((c : Thread nD τ).loc main_arg0) := W1_arg0 m ρ c

/-! ## After the first launch -/

/-- The first launch leaves its result array at what its write-backs fold to. -/
theorem V2_v1 (c : Dev nD) : V2 m ρ c main_v1 = (dat0 (V1 m ρ) c).arrAt 2 cfg0.N := W2_arr m ρ c 2

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

/-! ## Before the second launch -/

theorem V3_arg0 (c : Dev nD) : V3 m ρ c main_arg0 = m ((c : Thread nD τ).loc main_arg0) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg0) = W2 m ρ c (Proc.devRef .tc main_arg0))).trans (W2_arg0 m ρ c)

theorem V3_arg1 (c : Dev nD) : V3 m ρ c main_arg1 = m ((c : Thread nD τ).loc main_arg1) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg1) = W2 m ρ c (Proc.devRef .tc main_arg1))).trans (W2_arg1 m ρ c)

/-- The aggregate the second launch finds: the edge messages over the first launch's result array, accumulated. -/
theorem V3_v20 (c : Dev nD) : V3 m ρ c main_v20
    = Terms.agg (V2 m ρ c main_v1) (m ((c : Thread nD τ).loc main_arg2)) (m ((c : Thread nD τ).loc main_arg3))
        (m ((c : Thread nD τ).loc main_arg6)) (m ((c : Thread nD τ).loc main_arg7)) (m ((c : Thread nD τ).loc main_arg8)) := by
  show StableHlo.after hostOps1 (W2 m ρ c) (Proc.devRef .tc main_v20) = _
  after_results_simp
  rw [W2_arg2, W2_arg3, W2_arg6, W2_arg7, W2_arg8]
  rfl

/-- The mask column the second launch finds. -/
theorem V3_v28 (c : Dev nD) : V3 m ρ c main_v28 = Terms.maskCol (m ((c : Thread nD τ).loc main_arg7)) := by
  show StableHlo.after hostOps1 (W2 m ρ c) (Proc.devRef .tc main_v28) = _
  after_results_simp
  rw [W2_arg7]
  rfl

/-- A line of host operations run in two stretches. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, after_cons]; exact ih _

/-- No operation between the launches writes an argument array. -/
theorem hostOps1_keeps (b : Ref sig .tc) (hb : b = main_arg4 ∨ b = main_arg5) :
    ∀ op ∈ (hostOps1 : List (HloOp τ sig (Elt F))), (Proc.devRef .tc b : DevRef τ sig) ∉ op.writes := by
  rcases hb with rfl | rfl
  all_goals
    refine List.forall_iff_forall_mem.mp ?_
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The joined self-loop weights the second launch finds. -/
theorem V3_v30 (c : Dev nD) : V3 m ρ c main_v30
    = Terms.cat (m ((c : Thread nD τ).loc main_arg4)) (m ((c : Thread nD τ).loc main_arg5)) := by
  show StableHlo.after hostOps1 (W2 m ρ c) (Proc.devRef .tc main_v30) = _
  -- the last two operations join the weights and change the float format; the thirty-five before them write neither weight
  have e4 : StableHlo.after (List.take 35 (hostOps1 (F := F))) (W2 m ρ c) (Proc.devRef .tc main_arg4)
      = m ((c : Thread nD τ).loc main_arg4) :=
    (StableHlo.after_of_forall_not_mem _ _ fun op hop =>
      hostOps1_keeps main_arg4 (.inl rfl) op (List.mem_of_mem_take hop)).trans (W2_arg4 m ρ c)
  have e5 : StableHlo.after (List.take 35 (hostOps1 (F := F))) (W2 m ρ c) (Proc.devRef .tc main_arg5)
      = m ((c : Thread nD τ).loc main_arg5) :=
    (StableHlo.after_of_forall_not_mem _ _ fun op hop =>
      hostOps1_keeps main_arg5 (.inr rfl) op (List.mem_of_mem_take hop)).trans (W2_arg5 m ρ c)
  rw [show (hostOps1 : List (HloOp τ sig (Elt F))) = List.take 35 hostOps1 ++ List.drop 35 hostOps1
    from (List.take_append_drop 40 _).symm, after_append]
  generalize StableHlo.after (List.take 35 (hostOps1 (F := F))) (W2 m ρ c) = V' at e4 e5 ⊢
  simp only [hostOps1, List.drop_succ_cons, List.drop_zero]
  after_results
  rw [e4, e5]
  rfl

/-- The result buffer at the last boundary is what the second launch's write-backs fold to. -/
theorem W4_v31 (c : Dev nD) : W4 m ρ c (Proc.devRef .tc main_v31) = (dat1 (V3 m ρ) c).arrAt 5 cfg1.N := W4_arr m ρ c 5

end Cert.KernelIdeal.Named

end
-- ==== Proof.Spec.lean ====
/-
  A relational graph-convolution layer on the extended reals, as functions of its arrays.

  * `rowsMul a w` is rows times a matrix: entry (p, j) is the sum over k of a(p, k) · w(k, j).
  * `selfLoop h agg norm mask cat` is the node update: entry (p, j) is
        max (agg(p, j) · norm(p) + (mask(p) · L(p, j) + (1 − mask(p)) · E(p, j)), 0),
    where L and E are row p of `h` times the left and the right half of the 128 × 256 matrix `cat`.
    Every entry of row p depends on row p of the arrays only, whatever the number of rows.
  * `sum_add_mul`: on real-valued families a sum of (a + b) · w is the sum of a · w plus the sum of b · w (the
    extended reals do not distribute at the infinities, so the families are asked to be real).
  * `blend_select`: with a mask that is the number 0 or 1 of a one-bit word, mask · L + (1 − mask) · E is L when the bit is
    set and E when it is not — on every pair of extended reals, since 0 · x = 0 and 1 · x = x there.
-/
import Idealize.ShloMosaic.PureOps.Ideal
import Idealize.ShloMosaic.Lib.ValueIdx
import Mathlib.Tactic

noncomputable section

open scoped BigOperators

namespace Cert.RelConv

open Idealize.ShloMosaic Idealize.ShloMosaic.ValueIdx

/-- A rank-2 array of extended reals. -/
abbrev Arr (a b : ℕ) : Type := (⟨2, ![a, b]⟩ : Shape).Idx → EReal

/-- The row and the column of an index of a rank-2 array. -/
abbrev row {a b : ℕ} (i : (⟨2, ![a, b]⟩ : Shape).Idx) : Fin a := ⟨(i 0).val, (i 0).isLt⟩
abbrev col {a b : ℕ} (i : (⟨2, ![a, b]⟩ : Shape).Idx) : Fin b := ⟨(i 1).val, (i 1).isLt⟩

/-- Rows times a matrix. -/
def rowsMul {M K N : ℕ} (a : Arr M K) (w : Arr K N) : Arr M N :=
  fun i => ∑ k : Fin K, a (ix2 (row i) k) * w (ix2 k (col i))

theorem rowsMul_apply {M K N : ℕ} (a : Arr M K) (w : Arr K N) (p : Fin M) (j : Fin N) :
    rowsMul a w (ix2 p j) = ∑ k : Fin K, a (ix2 p k) * w (ix2 k j) := rfl

/-- Column j of the left half, and of the right half, of a 128 × 256 matrix. -/
abbrev lo (j : Fin 128) : Fin 256 := ⟨j.val, by omega⟩
abbrev hi (j : Fin 128) : Fin 256 := ⟨128 + j.val, by omega⟩

/-- The numbers one and zero as the f32 patterns that denote them. -/
abbrev one32 : EReal := Ideal.ofBits .f32 0x3F800000#32
abbrev zero32 : EReal := Ideal.ofBits .f32 0x00000000#32

theorem one32_eq : one32 = 1 := by
  show Ideal.ofBits .f32 0x3F800000#32 = 1
  simp [Ideal.ofBits, Ideal.ieee, -EReal.coe_mul]; norm_num

/-- The node update, row by row. -/
def selfLoop {R : ℕ} (h agg : Arr R 128) (norm mask : Arr R 1) (cat : Arr 128 256) : Arr R 128 := fun i =>
  max (agg (ix2 (row i) (col i)) * norm (ix2 (row i) (0 : Fin 1))
        + (mask (ix2 (row i) (0 : Fin 1)) * (∑ k : Fin 128, h (ix2 (row i) k) * cat (ix2 k (lo (col i))))
           + (one32 - mask (ix2 (row i) (0 : Fin 1))) * (∑ k : Fin 128, h (ix2 (row i) k) * cat (ix2 k (hi (col i))))))
      zero32

theorem selfLoop_apply {R : ℕ} (h agg : Arr R 128) (norm mask : Arr R 1) (cat : Arr 128 256) (p : Fin R) (j : Fin 128) :
    selfLoop h agg norm mask cat (ix2 p j)
      = max (agg (ix2 p j) * norm (ix2 p (0 : Fin 1))
          + (mask (ix2 p (0 : Fin 1)) * (∑ k : Fin 128, h (ix2 p k) * cat (ix2 k (lo j)))
             + (one32 - mask (ix2 p (0 : Fin 1))) * (∑ k : Fin 128, h (ix2 p k) * cat (ix2 k (hi j)))))
          zero32 := rfl

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real-valued families a sum of (a + b) · w splits. -/
theorem sum_add_mul {K : ℕ} (a b w : Fin K → EReal) (ha : ∀ k, ∃ r : ℝ, a k = (r : EReal))
    (hb : ∀ k, ∃ r : ℝ, b k = (r : EReal)) (hw : ∀ k, ∃ r : ℝ, w k = (r : EReal)) :
    ∑ k : Fin K, (a k + b k) * w k = ∑ k : Fin K, a k * w k + ∑ k : Fin K, b k * w k := by
  choose ra hra using ha
  choose rb hrb using hb
  choose rw' hrw using hw
  obtain rfl : a = fun k => (ra k : EReal) := funext hra
  obtain rfl : b = fun k => (rb k : EReal) := funext hrb
  obtain rfl : w = fun k => (rw' k : EReal) := funext hrw
  simp only [← EReal.coe_add, ← EReal.coe_mul, ← coe_sum]
  refine congrArg _ ?_
  rw [← Finset.sum_add_distrib]
  exact Finset.sum_congr rfl fun k _ => by ring

/-- A 0/1 mask blends two values into the one the bit selects. -/
theorem blend_select (b : BitVec 1) (L E : EReal) :
    ((b.toNat : ℝ) : EReal) * L + (one32 - ((b.toNat : ℝ) : EReal)) * E = Scalar.select b L E := by
  rw [one32_eq]
  rcases (by decide : ∀ b : BitVec 1, b = 0 ∨ b = 1) b with rfl | rfl
  · have h0 : (((0 : BitVec 1).toNat : ℝ) : EReal) = 0 := by simp
    rw [h0, zero_mul, zero_add, sub_zero, one_mul]
    rfl
  · have h1 : (((1 : BitVec 1).toNat : ℝ) : EReal) = 1 := by simp
    have h2 : (1 : EReal) - 1 = 0 := by
      rw [← EReal.coe_one, ← EReal.coe_sub, sub_self, EReal.coe_zero]
    rw [h1, one_mul, h2, zero_mul, add_zero]
    rfl

end Cert.RelConv

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«147541_j47777216201145_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.Region0.lean ====
/-
  The first launch: h times the neighbour weight, block by block, is the whole product.
-/
import proofs.«147541_j47777216201145_2_alg».proof.Proof.Gen.KernelIdeal.Frame
import proofs.«147541_j47777216201145_2_alg».proof.Proof.Spec
import proofs.«147541_j47777216201145_2_alg».proof.Proof.LibPlainDot
import Idealize.ShloMosaic.Lib.ValueIdx
import Idealize.ShloMosaic.Lib.Pipeline.Value

set_option maxRecDepth 16384

noncomputable section

namespace Cert.KernelIdeal.Region0

open Cert.KernelIdeal Cert.KernelIdeal.Gen Idealize.ShloMosaic Idealize.ShloMosaic.ValueIdx Idealize.ShloMosaic.TcCoe Idealize.SL.Sem
open Idealize.ShloMosaic.Pipeline (Dat)

/-- The product's dimension numbers are those of a plain 10000 × 128 by 128 × 128 product: the left operand is read
    at (row, contracted coordinate), the right at (contracted coordinate, column). -/
private theorem hdot : Cert.LibHostRead.PlainDot dot_S10000x128_S128x128_S10000x128_1_0_0_1_n_n where
  hr := rfl
  hs := rfl
  hl0 := fun _ _ => rfl
  hl1 := fun _ _ => rfl
  hr0 := fun _ _ => rfl
  hr1 := fun _ _ => rfl

/-- The body's stored value: the loaded rows times the loaded matrix. -/
theorem pay_eq (x0 : Vec Ideal S10000x128 .f32) (x1 : Vec Ideal S128x128 .bf16) :
    k0_pay1 (F := Ideal) x0 x1 = Cert.RelConv.rowsMul x0 x1 := by
  funext i
  obtain ⟨p, j, rfl⟩ : ∃ (p : Fin 10000) (j : Fin 128), i = ix2 p j := ⟨i 0, i 1, eq_ix2 i⟩
  unfold k0_pay1
  refine (Cert.LibPlainDot.vmatmul_apply dot_S10000x128_S128x128_S10000x128_1_0_0_1_n_n hdot _ _ p j).trans ?_
  rw [shapeCast_self]
  rfl

/-- The zero offsets of a whole-block access, as the constant zero function. -/
private theorem hz : (![0, 0] : Fin 2 → Nat) = fun _ => 0 := funext fun a => by fin_cases a <;> rfl

/-- The index maps over the grid: at point t the rows' and the result's block is block (t, 0), the matrix's is block
    (0, 0). -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays. -/
private theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.RelConv.rowsMul (V c main_arg0) (V c main_v0)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [pay_eq]
  obtain ⟨e0, e1, e2, e3, e4, e5⟩ := idx_facts t
  funext j
  obtain ⟨p, q, rfl⟩ : ∃ (p : Fin 10000) (q : Fin 128), j = ix2 p q := ⟨j 0, j 1, eq_ix2 j⟩
  have hp : p.val < 10000 := p.isLt
  have hq : q.val < 128 := q.isLt
  have ht : t.val < 5 := by have h : t.val < grid0.N := t.isLt; rwa [N_0] at h
  have hrow : t.val * 10000 + p.val < 50000 := by omega
  have h2 : ((cfg0.win 2).blk t).view.emb (ix2 p q) = ix2 (⟨t.val * 10000 + p.val, hrow⟩ : Fin 50000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  have h0 : ∀ k : Fin 128, ((cfg0.win 0).blk t).view.emb (ix2 p k) = ix2 (⟨t.val * 10000 + p.val, hrow⟩ : Fin 50000) k := by
    intro k
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : ∀ k : Fin 128, ((cfg0.win 1).blk t).view.emb (ix2 k q) = ix2 k q := by
    intro k
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  show Cert.RelConv.rowsMul (iblk0 V c 0 t) (iblk0 V c 1 t) (ix2 p q)
    = Cert.RelConv.rowsMul (V c main_arg0) (V c main_v0) (((cfg0.win 2).blk t).view.emb (ix2 p q))
  rw [h2, Cert.RelConv.rowsMul_apply, Cert.RelConv.rowsMul_apply]
  have a0 : ∀ k : Fin 128, (iblk0 V c 0 t (ix2 p k) : EReal)
      = V c main_arg0 (ix2 (⟨t.val * 10000 + p.val, hrow⟩ : Fin 50000) k) :=
    fun k => congrArg (V c main_arg0) (h0 k)
  have a1 : ∀ k : Fin 128, (iblk0 V c 1 t (ix2 k q) : EReal) = V c main_v0 (ix2 k q) :=
    fun k => congrArg (V c main_v0) (h1 k)
  exact Finset.sum_congr rfl fun k _ => congrArg₂ (fun x y : EReal => x * y) (a0 k) (a1 k)

/-- An index of the array is in point t's block iff each coordinate is in the block's range on its axis. -/
private theorem mem_blk (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v1).slice (win0_2.rect t)).set ↔ _
  rw [View.set_slice_whole, Rect.mem_set_unit]
  exact Iff.rfl

/-- Every index of the array is in the block of the point its row divided by 10000 names, and that point writes back. -/
private theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 10000 < grid0.N := by rw [N_0]; omega
  obtain ⟨-, -, -, -, e4, e5⟩ := idx_facts ⟨(i 0).val / 10000, hN⟩
  have e4' : win0_2.index ⟨(i 0).val / 10000, hN⟩ (0 : Fin 2) = (i 0).val / 10000 := e4
  refine ⟨⟨(i 0).val / 10000, hN⟩, flush0_2 _, ?_⟩
  rw [mem_blk]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    omega
  | ⟨1, _⟩ =>
    show win0_2.index ⟨(i 0).val / 10000, hN⟩ (1 : Fin 2) * 128 ≤ (i 1).val
      ∧ (i 1).val < win0_2.index ⟨(i 0).val / 10000, hN⟩ (1 : Fin 2) * 128 + 128
    omega

/-- After the launch the result array is the rows of the first operand's array times the second's, whatever the
    contents the launch is entered at. -/
theorem final0 (V : (c : Dev nD) → (b : Ref sig .tc) → Buf (Elt Ideal) ((c : Thread nD τ).loc b)) (c : Dev nD) :
    (dat0 (F := Ideal) V c).arrAt 2 cfg0.N = Cert.RelConv.rowsMul (V c main_arg0) (V c main_v0) :=
  (dat0 (F := Ideal) V c).arrAt_eq_of_cover 2 (Cert.RelConv.rowsMul (V c main_arg0) (V c main_v0))
    (fun t _ => flushed_eq V c t) covered

end Cert.KernelIdeal.Region0

end
-- ==== Proof.Region1.lean ====
/-
  The second launch: the node update, block by block, is the node update of the whole arrays.
-/
import proofs.«147541_j47777216201145_2_alg».proof.Proof.Gen.KernelIdeal.Frame
import proofs.«147541_j47777216201145_2_alg».proof.Proof.Spec
import proofs.«147541_j47777216201145_2_alg».proof.Proof.LibPlainDot
import Idealize.ShloMosaic.Lib.ValueIdx
import Idealize.ShloMosaic.Lib.Pipeline.Value
import Idealize.ShloMosaic.Lib.ValueLayout

set_option maxRecDepth 16384

noncomputable section

namespace Cert.KernelIdeal.Region1

open Cert.KernelIdeal Cert.KernelIdeal.Gen Idealize.ShloMosaic Idealize.ShloMosaic.ValueIdx Idealize.ShloMosaic.TcCoe Idealize.SL.Sem
open Idealize.ShloMosaic.Pipeline (Dat)

/-- The printed product of a 2000 × 128 by a 128 × 256 matrix is rows times columns. -/
theorem plainDot1 : Cert.LibHostRead.PlainDot dot_S2000x128_S128x256_S2000x256_1_0_0_1_n_n where
  hr := rfl
  hs := rfl
  hl0 := fun _ _ => rfl
  hl1 := fun _ _ => rfl
  hr0 := fun _ _ => rfl
  hr1 := fun _ _ => rfl

/-- The left 128 columns of a 2000 × 256 array, at (p, j), is the array at (p, j). -/
theorem slice_lo {α : Type} (x : (⟨2, ![2000, 256]⟩ : Shape).Idx → α)
    (h : (⟨2, ![2000, 256]⟩ : Shape).Slices ![0, 0] ⟨2, ![2000, 128]⟩) (p : Fin 2000) (j : Fin 128) :
    extractStridedSlice ⟨2, ![2000, 128]⟩ ![0, 0] x h (ix2 p j) = x (ix2 p (Cert.RelConv.lo j)) := by
  refine extractStridedSlice_apply _ x h (ix2 p j) (ix2 p (Cert.RelConv.lo j)) fun a => ?_
  match a with
  | ⟨0, _⟩ => show p.val = 0 + p.val; omega
  | ⟨1, _⟩ => show j.val = 0 + j.val; omega

/-- The right 128 columns of a 2000 × 256 array, at (p, j), is the array at (p, 128 + j). -/
theorem slice_hi {α : Type} (x : (⟨2, ![2000, 256]⟩ : Shape).Idx → α)
    (h : (⟨2, ![2000, 256]⟩ : Shape).Slices ![0, 128] ⟨2, ![2000, 128]⟩) (p : Fin 2000) (j : Fin 128) :
    extractStridedSlice ⟨2, ![2000, 128]⟩ ![0, 128] x h (ix2 p j) = x (ix2 p (Cert.RelConv.hi j)) := by
  refine extractStridedSlice_apply _ x h (ix2 p j) (ix2 p (Cert.RelConv.hi j)) fun a => ?_
  match a with
  | ⟨0, _⟩ => show p.val = 0 + p.val; omega
  | ⟨1, _⟩ => show 128 + j.val = 128 + j.val; rfl

/-- A column repeated along the rows reads, at (p, c), the column at (p, 0). -/
theorem bcol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value is the node update of the loaded blocks (h, the aggregate, the norm column, the mask column,
    the joined weights). -/
theorem pay_eq (x0 x1 : Vec Ideal S2000x128 .f32) (x2 x3 : Vec Ideal S2000x1 .f32) (x4 : Vec Ideal S128x256 .bf16) :
    k1_pay1 (F := Ideal) x0 x4 x3 x1 x2 = Cert.RelConv.selfLoop x0 x1 x2 x3 x4 := by
  funext i
  obtain ⟨p, j, rfl⟩ : ∃ (p : Fin 2000) (j : Fin 128), i = ix2 p j := ⟨i 0, i 1, eq_ix2 i⟩
  rw [Cert.RelConv.selfLoop_apply]
  unfold k1_pay1
  rw [maximumf_apply, addf_apply, mulf_apply, addf_apply, mulf_apply, mulf_apply, broadcast_apply]
  simp only [shapeCast_self]
  rw [bcol_apply, bcol_apply, bcol_apply, subf_apply, broadcast_apply, slice_lo, slice_hi,
    Cert.LibPlainDot.vmatmul_apply _ plainDot1, Cert.LibPlainDot.vmatmul_apply _ plainDot1]
  simp only [truncf_apply]
  rfl

/-- The offsets (0, 0) are zero on both axes. -/
theorem offs_zero : (![0, 0] : Fin 2 → Nat) = fun _ => 0 := funext fun a => by fin_cases a <;> rfl

/-- The printed index maps over the grid: windows 0, 1, 2, 3 and 5 sit at row block t, column block 0; window 4 at
    (0, 0) at every point. -/
theorem blockIndex_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- The node update at an index depends on the arrays through the index's row only: blocks that hold the rows of the
    arrays hold the rows of the update. -/
theorem selfLoop_rows {R R' : ℕ} (h agg : Cert.RelConv.Arr R 128) (norm mask : Cert.RelConv.Arr R 1) (cat : Cert.RelConv.Arr 128 256)
    (bh bagg : Cert.RelConv.Arr R' 128) (bnorm bmask : Cert.RelConv.Arr R' 1) (bcat : Cert.RelConv.Arr 128 256)
    (y : (⟨2, ![R', 128]⟩ : Shape).Idx) (i : (⟨2, ![R, 128]⟩ : Shape).Idx)
    (hcol : (i 1).val = (y 1).val)
    (h0 : ∀ k, bh (ix2 (Cert.RelConv.row y) k) = h (ix2 (Cert.RelConv.row i) k))
    (h1 : ∀ k, bagg (ix2 (Cert.RelConv.row y) k) = agg (ix2 (Cert.RelConv.row i) k))
    (h2 : bnorm (ix2 (Cert.RelConv.row y) (0 : Fin 1)) = norm (ix2 (Cert.RelConv.row i) (0 : Fin 1)))
    (h3 : bmask (ix2 (Cert.RelConv.row y) (0 : Fin 1)) = mask (ix2 (Cert.RelConv.row i) (0 : Fin 1)))
    (h4 : ∀ k q, bcat (ix2 k q) = cat (ix2 k q)) :
    Cert.RelConv.selfLoop bh bagg bnorm bmask bcat y = Cert.RelConv.selfLoop h agg norm mask cat i := by
  have hc : Cert.RelConv.col i = Cert.RelConv.col y := Fin.ext hcol
  unfold Cert.RelConv.selfLoop
  simp only [hc, h0, h1, h2, h3, h4]

/-- Window 0's block at point t holds rows 2000 t … 2000 t + 1999 of h: entry x of the block is the array at k when k's
    row is 2000 t plus x's and the columns agree. -/
theorem blk0_apply (V : (c : Dev nD) → (b : Ref sig .tc) → Buf (Elt Ideal) ((c : Thread nD τ).loc b)) (c : Dev nD)
    (t : Fin cfg1.N) (x : S2000x128.Idx) (k : S50000x128.Idx)
    (hk0 : (k 0).val = t.val * 2000 + (x 0).val) (hk1 : (k 1).val = (x 1).val) :
    (iblk1 (F := Ideal) V c 0 t : Vec Ideal S2000x128 .f32) x = (V c main_arg0 : S50000x128.Idx → EReal) k := by
  obtain ⟨e0, e1⟩ := (blockIndex_facts t).1
  unfold iblk1
  rw [View.read_apply]
  show V c main_arg0 _ = V c main_arg0 _
  congr 1
  funext a
  apply Fin.ext
  match a with
  | ⟨0, _⟩ => show win1_0.index t 0 * 2000 + 1 * (x 0).val = (k 0).val; rw [e0, hk0]; omega
  | ⟨1, _⟩ => show win1_0.index t 1 * 128 + 1 * (x 1).val = (k 1).val; rw [e1, hk1]; omega

/-- Window 1's block at point t holds rows 2000 t … 2000 t + 1999 of the aggregate. -/
theorem blk1_apply (V : (c : Dev nD) → (b : Ref sig .tc) → Buf (Elt Ideal) ((c : Thread nD τ).loc b)) (c : Dev nD)
    (t : Fin cfg1.N) (x : S2000x128.Idx) (k : S50000x128.Idx)
    (hk0 : (k 0).val = t.val * 2000 + (x 0).val) (hk1 : (k 1).val = (x 1).val) :
    (iblk1 (F := Ideal) V c 1 t : Vec Ideal S2000x128 .f32) x = (V c main_v20 : S50000x128.Idx → EReal) k := by
  obtain ⟨e0, e1⟩ := (blockIndex_facts t).2.1
  unfold iblk1
  rw [View.read_apply]
  show V c main_v20 _ = V c main_v20 _
  congr 1
  funext a
  apply Fin.ext
  match a with
  | ⟨0, _⟩ => show win1_1.index t 0 * 2000 + 1 * (x 0).val = (k 0).val; rw [e0, hk0]; omega
  | ⟨1, _⟩ => show win1_1.index t 1 * 128 + 1 * (x 1).val = (k 1).val; rw [e1, hk1]; omega

/-- Window 2's block at point t holds rows 2000 t … 2000 t + 1999 of the norm column. -/
theorem blk2_apply (V : (c : Dev nD) → (b : Ref sig .tc) → Buf (Elt Ideal) ((c : Thread nD τ).loc b)) (c : Dev nD)
    (t : Fin cfg1.N) (x : S2000x1.Idx) (k : S50000x1.Idx)
    (hk0 : (k 0).val = t.val * 2000 + (x 0).val) (hk1 : (k 1).val = (x 1).val) :
    (iblk1 (F := Ideal) V c 2 t : Vec Ideal S2000x1 .f32) x = (V c main_arg1 : S50000x1.Idx → EReal) k := by
  obtain ⟨e0, e1⟩ := (blockIndex_facts t).2.2.1
  unfold iblk1
  rw [View.read_apply]
  show V c main_arg1 _ = V c main_arg1 _
  congr 1
  funext a
  apply Fin.ext
  match a with
  | ⟨0, _⟩ => show win1_2.index t 0 * 2000 + 1 * (x 0).val = (k 0).val; rw [e0, hk0]; omega
  | ⟨1, _⟩ => show win1_2.index t 1 * 1 + 1 * (x 1).val = (k 1).val; rw [e1, hk1]; omega

/-- Window 3's block at point t holds rows 2000 t … 2000 t + 1999 of the mask column. -/
theorem blk3_apply (V : (c : Dev nD) → (b : Ref sig .tc) → Buf (Elt Ideal) ((c : Thread nD τ).loc b)) (c : Dev nD)
    (t : Fin cfg1.N) (x : S2000x1.Idx) (k : S50000x1.Idx)
    (hk0 : (k 0).val = t.val * 2000 + (x 0).val) (hk1 : (k 1).val = (x 1).val) :
    (iblk1 (F := Ideal) V c 3 t : Vec Ideal S2000x1 .f32) x = (V c main_v28 : S50000x1.Idx → EReal) k := by
  obtain ⟨e0, e1⟩ := (blockIndex_facts t).2.2.2.1
  unfold iblk1
  rw [View.read_apply]
  show V c main_v28 _ = V c main_v28 _
  congr 1
  funext a
  apply Fin.ext
  match a with
  | ⟨0, _⟩ => show win1_3.index t 0 * 2000 + 1 * (x 0).val = (k 0).val; rw [e0, hk0]; omega
  | ⟨1, _⟩ => show win1_3.index t 1 * 1 + 1 * (x 1).val = (k 1).val; rw [e1, hk1]; omega

/-- Window 4's block is the whole of the joined weights at every point. -/
theorem blk4_apply (V : (c : Dev nD) → (b : Ref sig .tc) → Buf (Elt Ideal) ((c : Thread nD τ).loc b)) (c : Dev nD)
    (t : Fin cfg1.N) (x : S128x256.Idx) :
    (iblk1 (F := Ideal) V c 4 t : Vec Ideal S128x256 .bf16) x = (V c main_v30 : S128x256.Idx → EReal) x := by
  obtain ⟨e0, e1⟩ := (blockIndex_facts t).2.2.2.2.1
  unfold iblk1
  rw [View.read_apply]
  show V c main_v30 _ = V c main_v30 _
  congr 1
  funext a
  apply Fin.ext
  match a with
  | ⟨0, _⟩ => show win1_4.index t 0 * 128 + 1 * (x 0).val = (x 0).val; rw [e0]; omega
  | ⟨1, _⟩ => show win1_4.index t 1 * 256 + 1 * (x 1).val = (x 1).val; rw [e1]; omega

/-- What point t writes back is block t of the node update of the operand arrays: entry (p, j) of the stored block reads
    row p of the blocks of h, the aggregate, the norm and the mask, which are row 2000 t + p of their arrays, and all of the
    weights. -/
theorem writeback_eq (V : (c : Dev nD) → (b : Ref sig .tc) → Buf (Elt Ideal) ((c : Thread nD τ).loc b)) (c : Dev nD)
    (t : Fin cfg1.N) :
    (dat1 (F := Ideal) V c).flushed 5 t = ((cfg1.win 5).blk t).view.read (Elt Ideal)
      (Cert.RelConv.selfLoop (V c main_arg0) (V c main_v20) (V c main_arg1) (V c main_v28) (V c main_v30)) := by
  show (cfg1.win 5).cut (grid1.coords t) ((dat1 (F := Ideal) V c).after 5 t) = _
  rw [after1_5]
  unfold out1_5
  rw [View.canon_unit_zero offs_zero]
  simp only [View.ld_unit_zero (S := S2000x128) offs_zero, View.ld_unit_zero (S := S2000x1) offs_zero,
    View.ld_unit_zero (S := S128x256) offs_zero]
  rw [pay_eq]
  funext y
  show Cert.RelConv.selfLoop (R := 2000) (iblk1 V c 0 t) (iblk1 V c 1 t) (iblk1 V c 2 t) (iblk1 V c 3 t) (iblk1 V c 4 t)
        (win1_5.xinj (grid1.coords t) y)
      = Cert.RelConv.selfLoop (R := 50000) (V c main_arg0) (V c main_v20) (V c main_arg1) (V c main_v28) (V c main_v30)
        (((cfg1.win 5).blk t).view.emb y)
  obtain ⟨e0, e1⟩ := (blockIndex_facts t).2.2.2.2.2
  have hrow : ((((cfg1.win 5).blk t).view.emb y) 0).val = t.val * 2000 + (y 0).val := by
    show win1_5.index t 0 * 2000 + 1 * (y 0).val = _
    rw [e0]; omega
  have hcol : ((((cfg1.win 5).blk t).view.emb y) 1).val = (y 1).val := by
    show win1_5.index t 1 * 128 + 1 * (y 1).val = _
    rw [e1]; omega
  refine selfLoop_rows _ _ _ _ _ _ _ _ _ _ _ _ hcol ?_ ?_ ?_ ?_ ?_
  · intro k; exact blk0_apply V c t _ _ hrow rfl
  · intro k; exact blk1_apply V c t _ _ hrow rfl
  · exact blk2_apply V c t _ _ hrow rfl
  · exact blk3_apply V c t _ _ hrow rfl
  · intro k q; exact blk4_apply V c t _

/-- An index of the result array is in point t's block iff each coordinate is in the block's range on its axis. -/
theorem mem_resultBlock (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v31).slice (win1_5.rect t)).set ↔ _
  rw [View.set_slice_whole, Rect.mem_set_unit]
  exact Iff.rfl

/-- Row r of the result array lies in the block of point r / 2000, which is written back. -/
theorem rows_covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show _ < grid1.N; rw [N_1]; omega⟩, rfl⟩
  obtain ⟨e0, e1⟩ := (blockIndex_facts t).2.2.2.2.2
  refine ⟨t, flush1_5 t, ?_⟩
  rw [mem_resultBlock]
  intro a
  match a with
  | ⟨0, _⟩ =>
    show win1_5.index t 0 * 2000 ≤ (i 0).val ∧ (i 0).val < win1_5.index t 0 * 2000 + 2000
    rw [e0, ht]; omega
  | ⟨1, _⟩ =>
    show win1_5.index t 1 * 128 ≤ (i 1).val ∧ (i 1).val < win1_5.index t 1 * 128 + 128
    rw [e1]; omega

/-- After the launch the result array is the node update of the five operand arrays, whatever the contents the launch is
    entered at. -/
theorem final1 (V : (c : Dev nD) → (b : Ref sig .tc) → Buf (Elt Ideal) ((c : Thread nD τ).loc b)) (c : Dev nD) :
    (dat1 (F := Ideal) V c).arrAt 5 cfg1.N
      = Cert.RelConv.selfLoop (V c main_arg0) (V c main_v20) (V c main_arg1) (V c main_v28) (V c main_v30) := by
  exact (dat1 (F := Ideal) V c).arrAt_eq_of_cover 5 _ (fun t _ => writeback_eq V c t) rows_covered

end Cert.KernelIdeal.Region1

end
-- ==== Proof.LibNodeScatter.lean ====
/-
  Rows of a node-by-feature array gathered, and accumulated, along the node axis, read at an index.

  The operand is an array over (node, feature) of extents `N, D`; the indices are a column of `M` words, each
  naming a node; the other array is over (index, feature) of extents `M, D`.
  * An ACCUMULATING SCATTER adds update row `e` to operand row `idx[e]` (the word read signed; a row outside
    `[0, N)` is dropped). On the extended reals entry `(n, d)` of the result is the operand's entry plus the sum,
    over the rows `e` with `idx[e] = n`, of update entry `(e, d)` (`hostScatterAdd_nodes_apply`), because update
    entry `(e, d)` lands exactly at `(idx[e], d)` (`resultIdx?_nodes`).
  * A GATHER reads operand row `idx[e]`, the word read signed and clamped into `[0, N − 1]`, into result row `e`
    (`gather_nodes_apply`).
  Neither statement depends on the feature extent `D`: the same rows are selected whatever the width of a row.
-/
import Idealize.ShloMosaic.PureOps.Ideal
import Idealize.ShloMosaic.Lib.ValueIdx

noncomputable section
open scoped BigOperators
namespace Cert.LibNodes

open Idealize.ShloMosaic Idealize.ShloMosaic.ValueIdx

/-- The dimension numbers of a scatter of whole rows into a node-by-feature array: update axis 1 is the window
    axis, operand axis 0 is the inserted one and the one the index names. -/
abbrev nodeScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

variable {N D M w : Nat} (wf : ScatterDims.WF ⟨2, ![N, D]⟩ ⟨2, ![M, 1]⟩ ⟨2, ![M, D]⟩ [1] [0] [0] 1)

/-- On the node axis an update's start is its row's index word, read signed. -/
theorem start0 (j : (⟨2, ![M, D]⟩ : Shape).Idx) (idx : IVec ⟨2, ![M, 1]⟩ w) :
    (nodeScatterDims N D M wf).start j idx 0 = (idx (ix2 (j 0) (0 : Fin 1))).toInt := by
  unfold ScatterDims.start
  rw [dif_pos (show (0 : Fin 2) ∈ (nodeScatterDims N D M wf).scatterDimsToOperandDims from List.mem_singleton.mpr rfl)]
  congr 2
  funext b; refine Fin.ext ?_
  match b with
  | ⟨0, _⟩ => rfl
  | ⟨1, _⟩ => rfl

/-- Update entry `(e, d)` lands at `(n, d')` exactly when the feature agrees and row `e`'s index word, read
    signed, is `n`. -/
theorem resultIdx?_nodes (e : Fin M) (d : Fin D) (idx : IVec ⟨2, ![M, 1]⟩ w) (n : Fin N) (d' : Fin D) :
    (nodeScatterDims N D M wf).resultIdx? (ix2 e d) idx = some (ix2 n d') ↔
      d' = d ∧ (idx (ix2 e (0 : Fin 1))).toInt = (n.val : ℤ) := by
  have hs : (nodeScatterDims N D M wf).start (ix2 e d) idx 0 = (idx (ix2 e (0 : Fin 1))).toInt := start0 wf _ idx
  unfold ScatterDims.resultIdx?
  split
  · next h =>
    rw [Option.some.injEq]
    constructor
    · intro hf
      have h0 := congrArg (fun f => (f 0).val) hf
      have h1 := congrArg (fun f => (f 1).val) hf
      have g0 := (h 0).1
      simp only at h0 h1
      refine ⟨Fin.ext ?_, ?_⟩
      · have : ((0 : ℤ) + ((d.val : ℕ) : ℤ)).toNat = d'.val := h1
        omega
      · have e1 : ((nodeScatterDims N D M wf).start (ix2 e d) idx 0 + ((0 : ℕ) : ℤ)).toNat = n.val := h0
        have e2 : 0 ≤ (nodeScatterDims N D M wf).start (ix2 e d) idx 0 + ((0 : ℕ) : ℤ) := g0
        rw [hs] at e1 e2
        omega
    · rintro ⟨rfl, hx⟩
      funext a
      refine Fin.ext ?_
      match a with
      | ⟨0, _⟩ =>
        show ((nodeScatterDims N D M wf).start (ix2 e d') idx 0 + ((0 : ℕ) : ℤ)).toNat = n.val
        rw [hs, hx]; omega
      | ⟨1, _⟩ => show ((0 : ℤ) + ((d'.val : ℕ) : ℤ)).toNat = d'.val; omega
  · next h =>
    constructor
    · intro hf; exact absurd hf (by simp)
    · rintro ⟨rfl, hx⟩
      exfalso; apply h
      intro a
      match a with
      | ⟨0, _⟩ =>
        show 0 ≤ (nodeScatterDims N D M wf).start (ix2 e d') idx 0 + ((0 : ℕ) : ℤ)
          ∧ (nodeScatterDims N D M wf).start (ix2 e d') idx 0 + ((0 : ℕ) : ℤ) < ((N : ℕ) : ℤ)
        rw [hs, hx]; have := n.isLt; omega
      | ⟨1, _⟩ =>
        show 0 ≤ (0 : ℤ) + ((d'.val : ℕ) : ℤ) ∧ (0 : ℤ) + ((d'.val : ℕ) : ℤ) < ((D : ℕ) : ℤ)
        have := d'.isLt; omega

/-- The accumulating row scatter read at `(n, d)`: the operand's entry plus the update entries `(e, d)` of the
    rows `e` whose index word names node `n`. -/
theorem hostScatterAdd_nodes_apply (x : (⟨2, ![N, D]⟩ : Shape).Idx → EReal) (idx : IVec ⟨2, ![M, 1]⟩ w)
    (upd : (⟨2, ![M, D]⟩ : Shape).Idx → EReal) (n : Fin N) (d : Fin D) :
    Ideal.hostScatterAdd (nodeScatterDims N D M wf) x idx upd (ix2 n d)
      = x (ix2 n d) + ∑ e : Fin M, if (idx (ix2 e (0 : Fin 1))).toInt = (n.val : ℤ) then upd (ix2 e d) else 0 := by
  unfold Ideal.hostScatterAdd
  refine congrArg (x (ix2 n d) + ·) ?_
  rw [← Finset.sum_filter]
  refine Finset.sum_nbij' (fun j => (j 0 : Fin M)) (fun e => ix2 e d) ?_ ?_ ?_ ?_ ?_
  · intro j hj
    have hj' := (Finset.mem_filter.mp hj).2
    rw [eq_ix2 j] at hj'
    exact Finset.mem_filter.mpr ⟨Finset.mem_univ _, ((resultIdx?_nodes wf _ _ idx n d).mp hj').2⟩
  · intro e he
    have he' := (Finset.mem_filter.mp he).2
    exact Finset.mem_filter.mpr ⟨Finset.mem_univ _, (resultIdx?_nodes wf e d idx n d).mpr ⟨rfl, he'⟩⟩
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact hjj.symm
  · intro e _; rfl
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact congrArg upd hjj

/-- The dimension numbers of a gather of whole rows of a node-by-feature array: a column of `M` start indices
    naming nodes, the result over (index, feature). -/
abbrev nodeGatherDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The node a start-index word names: read signed and clamped into `[0, N − 1]`. -/
def nodeOf (N : Nat) (hN : 0 < N) {w : Nat} (x : BitVec w) : Fin N := ⟨min x.toInt.toNat (N - 1), by omega⟩

/-- The row gather read at `(e, d)`: the operand at the row `idx[e]` names. -/
theorem gather_nodes_apply {α : Type} (hN : 0 < N)
    (wfg : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (nodeGatherDims N D M wfg) x idx (ix2 e d)
      = x (ix2 (nodeOf N hN (idx (ix2 e (0 : Fin 1)))) d) := by
  unfold Host.gather
  refine congrArg x (funext fun a => Fin.ext ?_)
  have hst : (nodeGatherDims N D M wfg).start (ix2 e d) idx 0 = min (idx (ix2 e (0 : Fin 1))).toInt.toNat (N - 1) := by
    unfold GatherDims.start
    rw [dif_pos (show (0 : Fin 2) ∈ (nodeGatherDims N D M wfg).startIndexMap from List.mem_singleton.mpr rfl)]
    have hsi : (nodeGatherDims N D M wfg).siIdx (ix2 e d) ⟨List.idxOf (0 : Fin 2) (nodeGatherDims N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (nodeGatherDims N D M wfg).start (ix2 e d) idx 0 + (nodeGatherDims N D M wfg).batchCoord (ix2 e d) 0
      + (nodeGatherDims N D M wfg).offCoord (ix2 e d) 0 = min (idx (ix2 e (0 : Fin 1))).toInt.toNat (N - 1)
    have h2 : (nodeGatherDims N D M wfg).batchCoord (ix2 e d) 0 = 0 := rfl
    have h3 : (nodeGatherDims N D M wfg).offCoord (ix2 e d) 0 = 0 := rfl
    rw [hst, h2, h3]; rfl
  | ⟨1, _⟩ =>
    show (nodeGatherDims N D M wfg).start (ix2 e d) idx 1 + (nodeGatherDims N D M wfg).batchCoord (ix2 e d) 1
      + (nodeGatherDims N D M wfg).offCoord (ix2 e d) 1 = d.val
    have h1 : (nodeGatherDims N D M wfg).start (ix2 e d) idx 1 = 0 := rfl
    have h2 : (nodeGatherDims N D M wfg).batchCoord (ix2 e d) 1 = 0 := rfl
    have h3 : (nodeGatherDims N D M wfg).offCoord (ix2 e d) 1 = d.val := rfl
    rw [h1, h2, h3]; omega

end Cert.LibNodes
end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.EdgeMsg.lean ====
/-
  The edge messages: gathering rows of the two products and adding is the product of the added gathered rows, on real
  inputs; so the two programs accumulate the same messages into the same nodes.
-/
import proofs.«147541_j47777216201145_2_alg».proof.Proof.KernelTerms
import proofs.«147541_j47777216201145_2_alg».proof.Proof.ReadP
import proofs.«147541_j47777216201145_2_alg».proof.Proof.Spec
import proofs.«147541_j47777216201145_2_alg».proof.Proof.LibNodeScatter
import proofs.«147541_j47777216201145_2_alg».proof.Proof.LibPlainDot
import proofs.«147541_j47777216201145_2_alg».proof.Proof.LibRealValued
import Idealize.ShloMosaic.Lib.ValueIdx
import Idealize.ShloMosaic.Lib.Pipeline.Value

set_option maxRecDepth 16384

noncomputable section

namespace Cert.Bridge

open Idealize.ShloMosaic Idealize.ShloMosaic.ValueIdx Cert.Lib.RealValued
open scoped BigOperators

/-- The wrapped source column is one integer program in both descriptions. -/
private theorem srcCol_eq (x6 : IVec Cert.KernelIdeal.S600000 32) :
    Cert.KernelIdeal.Terms.srcCol x6 = Cert.ReferenceIdeal.ReadP.val_main_v5 (F := Ideal) x6 := rfl

/-- The wrapped relation column is one integer program in both descriptions. -/
private theorem relCol_eq (x8 : IVec Cert.KernelIdeal.S600000 32) :
    Cert.KernelIdeal.Terms.relCol x8 = Cert.ReferenceIdeal.ReadP.val_main_v12 (F := Ideal) x8 := rfl

/-- The kernel's gather of node rows, read at an edge and a feature. -/
private theorem kgather_src {α : Type} (x : Cert.KernelIdeal.S50000x128.Idx → α) (idx : IVec Cert.KernelIdeal.S600000x1 32)
    (e : Fin 600000) (d : Fin 128) :
    Host.gather Cert.KernelIdeal.gather_S50000x128_S600000x1_S600000x128_1_0_n_n_0_1_1128 x idx (ix2 e d)
      = x (ix2 (Cert.LibNodes.nodeOf 50000 (by norm_num) (idx (ix2 e (0 : Fin 1)))) d) :=
  Cert.LibNodes.gather_nodes_apply (N := 50000) (D := 128) (M := 600000) (by norm_num)
    Cert.KernelIdeal.Facts₀.gather_S50000x128_S600000x1_S600000x128_1_0_n_n_0_1_1128_wf x idx e d

/-- The kernel's gather of relation rows, read at an edge and a feature. -/
private theorem kgather_rel {α : Type} (x : Cert.KernelIdeal.S500x128.Idx → α) (idx : IVec Cert.KernelIdeal.S600000x1 32)
    (e : Fin 600000) (d : Fin 128) :
    Host.gather Cert.KernelIdeal.gather_S500x128_S600000x1_S600000x128_1_0_n_n_0_1_1128 x idx (ix2 e d)
      = x (ix2 (Cert.LibNodes.nodeOf 500 (by norm_num) (idx (ix2 e (0 : Fin 1)))) d) :=
  Cert.LibNodes.gather_nodes_apply (N := 500) (D := 128) (M := 600000) (by norm_num)
    Cert.KernelIdeal.Facts₀.gather_S500x128_S600000x1_S600000x128_1_0_n_n_0_1_1128_wf x idx e d

/-- The reference's gather of node rows, read at an edge and a feature. -/
private theorem rgather_src {α : Type} (x : Cert.ReferenceIdeal.S50000x128.Idx → α) (idx : IVec Cert.ReferenceIdeal.S600000x1 32)
    (e : Fin 600000) (d : Fin 128) :
    Host.gather Cert.ReferenceIdeal.gather_S50000x128_S600000x1_S600000x128_1_0_n_n_0_1_1128 x idx (ix2 e d)
      = x (ix2 (Cert.LibNodes.nodeOf 50000 (by norm_num) (idx (ix2 e (0 : Fin 1)))) d) :=
  Cert.LibNodes.gather_nodes_apply (N := 50000) (D := 128) (M := 600000) (by norm_num)
    Cert.ReferenceIdeal.Facts₀.gather_S50000x128_S600000x1_S600000x128_1_0_n_n_0_1_1128_wf x idx e d

/-- The reference's gather of relation rows, read at an edge and a feature. -/
private theorem rgather_rel {α : Type} (x : Cert.ReferenceIdeal.S500x128.Idx → α) (idx : IVec Cert.ReferenceIdeal.S600000x1 32)
    (e : Fin 600000) (d : Fin 128) :
    Host.gather Cert.ReferenceIdeal.gather_S500x128_S600000x1_S600000x128_1_0_n_n_0_1_1128 x idx (ix2 e d)
      = x (ix2 (Cert.LibNodes.nodeOf 500 (by norm_num) (idx (ix2 e (0 : Fin 1)))) d) :=
  Cert.LibNodes.gather_nodes_apply (N := 500) (D := 128) (M := 600000) (by norm_num)
    Cert.ReferenceIdeal.Facts₀.gather_S500x128_S600000x1_S600000x128_1_0_n_n_0_1_1128_wf x idx e d

/-- The relation product at a relation and a feature: the sum over the contracted axis. -/
private theorem embW_apply (x2 : FVec Ideal Cert.KernelIdeal.S500x128 .f32) (x3 : FVec Ideal Cert.KernelIdeal.S128x128 .f32)
    (r : Fin 500) (j : Fin 128) :
    Cert.KernelIdeal.Terms.embW (F := Ideal) x2 x3 (ix2 r j) = ∑ k : Fin 128, x2 (ix2 r k) * x3 (ix2 k j) :=
  Cert.LibPlainDot.hdot_apply (M := 500) (K := 128) (N := 128) _ (Cert.LibPlainDot.plainDot_plain 500 128 128) x2 x3 r j

/-- Per edge and feature: row `src` of h · W plus row `rel` of emb · W is row (h[src] + emb[rel]) times W. -/
theorem edgeMsg_eq (x0 : FVec Ideal Cert.KernelIdeal.S50000x128 .f32) (x2 : FVec Ideal Cert.KernelIdeal.S500x128 .f32)
    (x3 : FVec Ideal Cert.KernelIdeal.S128x128 .f32) (x6 x8 : IVec Cert.KernelIdeal.S600000 32)
    (h0 : AllReal x0) (h2 : AllReal x2) (h3 : AllReal x3) :
    Cert.KernelIdeal.Terms.edgeMsg (F := Ideal) (Cert.RelConv.rowsMul x0 (Cert.KernelIdeal.Terms.w16 (F := Ideal) x3)) x2 x3 x6 x8
      = Cert.ReferenceIdeal.ReadP.val_main_v15 (F := Ideal) x0 x2 x3 x6 x8 := by
  funext i
  obtain ⟨e, j, rfl⟩ : ∃ (e : Fin 600000) (j : Fin 128), i = ix2 e j := ⟨i 0, i 1, eq_ix2 i⟩
  have hl : ∀ k : Fin 128, Cert.ReferenceIdeal.ReadP.lidx_main_v15 (ix2 e j) k = ix2 e k := fun k =>
    funext fun a => Fin.ext (by match a with | ⟨0, _⟩ => rfl | ⟨1, _⟩ => rfl)
  have hr : ∀ k : Fin 128, Cert.ReferenceIdeal.ReadP.ridx_main_v15 (ix2 e j) k = ix2 k j := fun k =>
    funext fun a => Fin.ext (by match a with | ⟨0, _⟩ => rfl | ⟨1, _⟩ => rfl)
  -- the reference: the sum over k of (h[src, k] + emb[rel, k]) · W[k, j]
  rw [Cert.ReferenceIdeal.ReadP.val_main_v15_apply]
  simp only [hl, hr, Cert.ReferenceIdeal.ReadP.val_main_v14_apply, Cert.ReferenceIdeal.ReadP.val_main_v6,
    Cert.ReferenceIdeal.ReadP.val_main_v13, rgather_src, rgather_rel, Ideal.addf_def]
  -- the kernel: row src of h · W plus row rel of emb · W
  unfold Cert.KernelIdeal.Terms.edgeMsg
  rw [addf_apply, kgather_src, kgather_rel, Cert.RelConv.rowsMul_apply, embW_apply, srcCol_eq, relCol_eq]
  -- the change of float format is the identity on the extended reals
  have hw : ∀ k : Fin 128, Cert.KernelIdeal.Terms.w16 (F := Ideal) x3 (ix2 k j) = x3 (ix2 k j) := fun k => rfl
  simp only [hw]
  -- distributivity over a sum of real-valued families
  exact (Cert.RelConv.sum_add_mul
    (fun k : Fin 128 => x0 (ix2 (Cert.LibNodes.nodeOf 50000 (by norm_num) (Cert.ReferenceIdeal.ReadP.val_main_v5 (F := Ideal) x6 (ix2 e (0 : Fin 1)))) k))
    (fun k : Fin 128 => x2 (ix2 (Cert.LibNodes.nodeOf 500 (by norm_num) (Cert.ReferenceIdeal.ReadP.val_main_v12 (F := Ideal) x8 (ix2 e (0 : Fin 1)))) k))
    (fun k : Fin 128 => x3 (ix2 k j)) (fun k => h0 _) (fun k => h2 _) (fun k => h3 _)).symm

/-- The two programs' aggregates are one array. -/
theorem agg_eq (x0 : FVec Ideal Cert.KernelIdeal.S50000x128 .f32) (x2 : FVec Ideal Cert.KernelIdeal.S500x128 .f32)
    (x3 : FVec Ideal Cert.KernelIdeal.S128x128 .f32) (x6 x7 x8 : IVec Cert.KernelIdeal.S600000 32)
    (h0 : AllReal x0) (h2 : AllReal x2) (h3 : AllReal x3) :
    Cert.KernelIdeal.Terms.agg (F := Ideal) (Cert.RelConv.rowsMul x0 (Cert.KernelIdeal.Terms.w16 (F := Ideal) x3)) x2 x3 x6 x7 x8
      = Cert.ReferenceIdeal.ReadP.val_main_v18 (F := Ideal) x0 x2 x3 x6 x7 x8 := by
  unfold Cert.KernelIdeal.Terms.agg Cert.ReferenceIdeal.ReadP.val_main_v18
  rw [edgeMsg_eq x0 x2 x3 x6 x8 h0 h2 h3]
  rfl

end Cert.Bridge

end
-- ==== Proof.NodeUpdate.lean ====
/-
  The node update: blending the two self-loop products by a 0/1 mask is selecting one of them by the mask's bit, and the
  joined weight matrix's halves are the two weights.
-/
import proofs.«147541_j47777216201145_2_alg».proof.Proof.KernelTerms
import proofs.«147541_j47777216201145_2_alg».proof.Proof.ReadP
import proofs.«147541_j47777216201145_2_alg».proof.Proof.Spec
import proofs.«147541_j47777216201145_2_alg».proof.Proof.LibHostRead
import Idealize.ShloMosaic.Lib.ValueIdx
import Idealize.ShloMosaic.Lib.Pipeline.Value

set_option maxRecDepth 16384

noncomputable section

namespace Cert.Bridge

open Idealize.ShloMosaic Idealize.ShloMosaic.ValueIdx

/-! ## The joined weights: the left half is the first weight, the right half the second -/

/-- Column `j` of the left half of the joined weights is column `j` of the first weight. -/
theorem cat_lo (x4 x5 : FVec Ideal Cert.KernelIdeal.S128x128 .f32) (k j : Fin 128) :
    Cert.KernelIdeal.Terms.cat (F := Ideal) x4 x5 (ix2 k (Cert.RelConv.lo j)) = x4 (ix2 k j) := by
  unfold Cert.KernelIdeal.Terms.cat
  rw [truncf_apply]
  exact concatenate_pair_apply_left (1 : Fin 2) x4 x5 _ (ix2 k (Cert.RelConv.lo j)) rfl (ix2 k j)
    (fun b => by match b with | ⟨0, _⟩ => rfl | ⟨1, _⟩ => rfl)

/-- Column `j` of the right half of the joined weights is column `j` of the second weight. -/
theorem cat_hi (x4 x5 : FVec Ideal Cert.KernelIdeal.S128x128 .f32) (k j : Fin 128) :
    Cert.KernelIdeal.Terms.cat (F := Ideal) x4 x5 (ix2 k (Cert.RelConv.hi j)) = x5 (ix2 k j) := by
  unfold Cert.KernelIdeal.Terms.cat
  rw [truncf_apply]
  exact concatenate_pair_apply_right (1 : Fin 2) x4 x5 _ (ix2 k (Cert.RelConv.hi j)) rfl rfl (ix2 k j)
    (fun b hb => by
      match b with
      | ⟨0, _⟩ => rfl
      | ⟨1, _⟩ => exact absurd rfl hb)
    (by show j.val + 128 = 128 + j.val; exact Nat.add_comm _ _)

/-! ## The mask: the number of the bit the reference selects by -/

/-- The bit "node `p` has an incoming edge", as the reference computes it. -/
abbrev degBit (x7 : IVec Cert.KernelIdeal.S600000 32) (p : Fin 50000) : BitVec 1 :=
  FloatOps.cmpf (F := Ideal) (φ := .f32) .ogt (Cert.ReferenceIdeal.ReadP.val_main_v24 (F := Ideal) x7 (ix1 p))
    (Cert.ReferenceIdeal.ReadP.val_main_v25 (F := Ideal) (ix1 p))

/-- The kernel's count of incoming edges is the reference's. -/
theorem inDeg_eq (x7 : IVec Cert.KernelIdeal.S600000 32) :
    Cert.KernelIdeal.Terms.inDeg (F := Ideal) x7 = Cert.ReferenceIdeal.ReadP.val_main_v24 (F := Ideal) x7 := rfl

/-- The kernel's mask column at node `p` is the number of that bit. -/
theorem mask_apply (x7 : IVec Cert.KernelIdeal.S600000 32) (p : Fin 50000) :
    Cert.KernelIdeal.Terms.maskCol (F := Ideal) x7 (ix2 p (0 : Fin 1)) = (((degBit x7 p).toNat : ℝ) : EReal) := by
  unfold Cert.KernelIdeal.Terms.maskCol
  rw [Cert.LibHostRead.bid_a_a1_apply, inDeg_eq]
  rfl

/-- The node update of (h, any aggregate, the norm, the kernel's mask column, the kernel's joined weights) is the reference's
    last four stages applied to that aggregate: max (a · norm + where(in-degree > 0, h · loop, h · evolve), 0). -/
theorem node_eq (x0 a : FVec Ideal Cert.KernelIdeal.S50000x128 .f32) (x1 : FVec Ideal Cert.KernelIdeal.S50000x1 .f32)
    (x4 x5 : FVec Ideal Cert.KernelIdeal.S128x128 .f32) (x7 : IVec Cert.KernelIdeal.S600000 32) :
    Cert.RelConv.selfLoop x0 a x1 (Cert.KernelIdeal.Terms.maskCol (F := Ideal) x7) (Cert.KernelIdeal.Terms.cat (F := Ideal) x4 x5)
      = maximumf (addf (mulf a (Cert.ReferenceIdeal.ReadP.val_main_v19 (F := Ideal) x1))
            (Cert.ReferenceIdeal.ReadP.val_main_v30 (F := Ideal) x0 x4 x5 x7))
          (Cert.ReferenceIdeal.ReadP.val_main_call1_v0 (F := Ideal)) := by
  funext i
  obtain ⟨p, j, rfl⟩ : ∃ (p : Fin 50000) (j : Fin 128), i = ix2 p j := ⟨i 0, i 1, eq_ix2 i⟩
  -- the left side: the mask is the number of the bit, the halves of the joined weights are the two weights
  rw [Cert.RelConv.selfLoop_apply, mask_apply]
  simp only [cat_lo, cat_hi]
  rw [Cert.RelConv.blend_select]
  -- the right side, stage by stage, at (p, j)
  have e19 : Cert.ReferenceIdeal.ReadP.idx_main_v19 (ix2 p j) = ix2 p (0 : Fin 1) :=
    funext fun c => Fin.ext (by match c with | ⟨0, _⟩ => rfl | ⟨1, _⟩ => rfl)
  have e0 : Cert.ReferenceIdeal.ReadP.idx_main_call0_v0 (ix2 p j) = ix2 p (0 : Fin 1) :=
    funext fun c => Fin.ext (by match c with | ⟨0, _⟩ => rfl | ⟨1, _⟩ => rfl)
  have e27 : Cert.ReferenceIdeal.ReadP.idx_main_v27 (ix2 p (0 : Fin 1)) = ix1 p :=
    funext fun c => Fin.ext (by match c with | ⟨0, _⟩ => rfl)
  have el28 : ∀ k : Fin 128, Cert.ReferenceIdeal.ReadP.lidx_main_v28 (ix2 p j) k = ix2 p k := fun k =>
    funext fun c => Fin.ext (by match c with | ⟨0, _⟩ => rfl | ⟨1, _⟩ => rfl)
  have er28 : ∀ k : Fin 128, Cert.ReferenceIdeal.ReadP.ridx_main_v28 (ix2 p j) k = ix2 k j := fun k =>
    funext fun c => Fin.ext (by match c with | ⟨0, _⟩ => rfl | ⟨1, _⟩ => rfl)
  have el29 : ∀ k : Fin 128, Cert.ReferenceIdeal.ReadP.lidx_main_v29 (ix2 p j) k = ix2 p k := fun k =>
    funext fun c => Fin.ext (by match c with | ⟨0, _⟩ => rfl | ⟨1, _⟩ => rfl)
  have er29 : ∀ k : Fin 128, Cert.ReferenceIdeal.ReadP.ridx_main_v29 (ix2 p j) k = ix2 k j := fun k =>
    funext fun c => Fin.ext (by match c with | ⟨0, _⟩ => rfl | ⟨1, _⟩ => rfl)
  have h19 : Cert.ReferenceIdeal.ReadP.val_main_v19 (F := Ideal) x1 (ix2 p j) = x1 (ix2 p (0 : Fin 1)) :=
    (Cert.ReferenceIdeal.ReadP.val_main_v19_apply (F := Ideal) x1 _).trans (congrArg x1 e19)
  have h28 : Cert.ReferenceIdeal.ReadP.val_main_v28 (F := Ideal) x0 x4 (ix2 p j) = ∑ k : Fin 128, x0 (ix2 p k) * x4 (ix2 k j) :=
    (Cert.ReferenceIdeal.ReadP.val_main_v28_apply x0 x4 _).trans (Finset.sum_congr rfl fun k _ => by rw [el28 k, er28 k])
  have h29 : Cert.ReferenceIdeal.ReadP.val_main_v29 (F := Ideal) x0 x5 (ix2 p j) = ∑ k : Fin 128, x0 (ix2 p k) * x5 (ix2 k j) :=
    (Cert.ReferenceIdeal.ReadP.val_main_v29_apply x0 x5 _).trans (Finset.sum_congr rfl fun k _ => by rw [el29 k, er29 k])
  have hb : Cert.ReferenceIdeal.ReadP.val_main_call0_v0 (F := Ideal) x7 (ix2 p j) = degBit x7 p := by
    rw [Cert.ReferenceIdeal.ReadP.val_main_call0_v0_apply (F := Ideal), e0, Cert.ReferenceIdeal.ReadP.val_main_v27_apply (F := Ideal), e27,
      Cert.ReferenceIdeal.ReadP.val_main_v26_apply (F := Ideal)]
  have hz : Cert.ReferenceIdeal.ReadP.val_main_call1_v0 (F := Ideal) (ix2 p j) = Cert.RelConv.zero32 :=
    (Cert.ReferenceIdeal.ReadP.val_main_call1_v0_apply (F := Ideal) _).trans rfl
  show _ = max (a (ix2 p j) * Cert.ReferenceIdeal.ReadP.val_main_v19 (F := Ideal) x1 (ix2 p j)
      + Scalar.select (Cert.ReferenceIdeal.ReadP.val_main_call0_v0 (F := Ideal) x7 (ix2 p j))
          (Cert.ReferenceIdeal.ReadP.val_main_v28 (F := Ideal) x0 x4 (ix2 p j))
          (Cert.ReferenceIdeal.ReadP.val_main_v29 (F := Ideal) x0 x5 (ix2 p j)))
    (Cert.ReferenceIdeal.ReadP.val_main_call1_v0 (F := Ideal) (ix2 p j))
  rw [h19, h28, h29, hb, hz]

end Cert.Bridge

end
-- ==== Proof.KernelValue.lean ====
/-
  The idealized kernel's result is the reference's, on real inputs.

  At the last boundary the result buffer holds what the second launch's write-backs fold to: the node update of h, the
  aggregate, the norm, the mask column and the joined self-loop weights as the launch finds them. The aggregate is the edge
  messages over the first launch's result — h times the neighbour weight — accumulated into destination nodes; on real
  inputs those messages are the reference's (a matrix product distributes over the sum of two gathered rows), so the
  aggregates agree; and the node update with a 0/1 mask and the joined weights is the reference's selection between the two
  self-loop products, followed by the same sum and the same maximum with zero.
-/
import proofs.«147541_j47777216201145_2_alg».proof.Proof.HostStretch
import proofs.«147541_j47777216201145_2_alg».proof.Proof.Region0
import proofs.«147541_j47777216201145_2_alg».proof.Proof.Region1
import proofs.«147541_j47777216201145_2_alg».proof.Proof.EdgeMsg
import proofs.«147541_j47777216201145_2_alg».proof.Proof.NodeUpdate

set_option maxRecDepth 16384

noncomputable section

namespace Cert.Bridge

open Idealize.ShloMosaic Idealize.ShloMosaic.TcCoe Idealize.SL.Sem Cert.Lib.RealValued

/-- The two programs as functions of the arrays: the node update over the kernel's aggregate of h · W is the reference. -/
theorem kernel_eq_reference (x0 : FVec Ideal Cert.KernelIdeal.S50000x128 .f32) (x1 : FVec Ideal Cert.KernelIdeal.S50000x1 .f32)
    (x2 : FVec Ideal Cert.KernelIdeal.S500x128 .f32) (x3 x4 x5 : FVec Ideal Cert.KernelIdeal.S128x128 .f32)
    (x6 x7 x8 : IVec Cert.KernelIdeal.S600000 32) (h0 : AllReal x0) (h2 : AllReal x2) (h3 : AllReal x3) :
    Cert.RelConv.selfLoop x0
        (Cert.KernelIdeal.Terms.agg (F := Ideal) (Cert.RelConv.rowsMul x0 (Cert.KernelIdeal.Terms.w16 (F := Ideal) x3)) x2 x3 x6 x7 x8)
        x1 (Cert.KernelIdeal.Terms.maskCol (F := Ideal) x7) (Cert.KernelIdeal.Terms.cat (F := Ideal) x4 x5)
      = Cert.ReferenceIdeal.ReadP.val_main_v32 (F := Ideal) x0 x1 x2 x3 x4 x5 x6 x7 x8 := by
  rw [agg_eq x0 x2 x3 x6 x7 x8 h0 h2 h3, node_eq]
  -- what is left is the reference's last stages spelt out: the product with the norm, the sum, the maximum with zero
  rfl

open Cert.KernelIdeal Cert.KernelIdeal.Gen Cert.KernelIdeal.Named in
/-- The result buffer at the last boundary is the reference's value of the launch memory's argument arrays, when the node
    features, the relation embeddings and the neighbour weight are real-valued. -/
theorem result_eq (m : (ℓ : Loc nD τ sig) → Buf (Elt Ideal) ℓ) (ρ : Dev nD → PrngReg) (c : Dev nD)
    (h0 : AllReal (m ((c : Thread nD τ).loc main_arg0))) (h2 : AllReal (m ((c : Thread nD τ).loc main_arg2)))
    (h3 : AllReal (m ((c : Thread nD τ).loc main_arg3))) :
    W4 m ρ c (Proc.devRef .tc main_v31)
      = Cert.ReferenceIdeal.ReadP.val_main_v32 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  rw [W4_v31, Cert.KernelIdeal.Region1.final1 (V3 m ρ) c, V3_arg0, V3_arg1, V3_v20, V3_v28, V3_v30, V2_v1,
    Cert.KernelIdeal.Region0.final0 (V1 m ρ) c, V1_arg0, V1_v0]
  exact kernel_eq_reference _ _ _ _ _ _ _ _ _ h0 h2 h3

end Cert.Bridge

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«147541_j47777216201145_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Finite.lean ====
/-
  The precondition read back: the node features, the relation embeddings and the neighbour weight are real-valued.

  The precondition is the conjunction, over the six float inputs, of "every entry's absolute value is below +∞"; it
  holds when the printed test evaluates to 1. A conjunction that is 1 has every conjunct 1, and one input's conjunct says
  that every entry of that input is a real number.
-/
import proofs.«147541_j47777216201145_2_alg».proof.Pre_finite_inputs
import proofs.«147541_j47777216201145_2_alg».proof.Proof.Gen.Pre_finite_inputs
import proofs.«147541_j47777216201145_2_alg».proof.Proof.LibFiniteTest
import Idealize.ShloMosaic.Lib.ValueIdx
import Idealize.ShloMosaic.Lib.Affine

noncomputable section

namespace Cert.Bridge

open Idealize.ShloMosaic Cert.Lib.RealValued Cert.Pre_finite_inputs

instance subsingleton_S_ : Subsingleton S_.Idx := ⟨fun a b => funext fun d => d.elim0⟩

/-- Where the printed test is 1, the node features, the relation embeddings and the neighbour weight hold reals. -/
theorem real_of_pre (x0 : FVec Ideal S50000x128 .f32) (x1 : FVec Ideal S50000x1 .f32) (x2 : FVec Ideal S500x128 .f32)
    (x3 x4 x5 : FVec Ideal S128x128 .f32) (x6 x7 x8 : IVec S600000 32)
    (h : Cert.Pre_finite_inputs.fn (F := Ideal) x0 x1 x2 x3 x4 x5 x6 x7 x8 = fun _ => 1#1) :
    AllReal x0 ∧ AllReal x2 ∧ AllReal x3 := by
  have h0 := congrFun h ValueIdx.ix0
  dsimp only [Cert.Pre_finite_inputs.fn, Cert.Pre_finite_inputs.fn_part1, andi] at h0
  simp only [IntOp.andi_eq_one] at h0
  obtain ⟨⟨⟨⟨⟨e0, e1⟩, e2⟩, e3⟩, e4⟩, e5⟩ := h0
  exact ⟨Cert.Lib.FiniteTest.allReal_of_all x0 _ _ _ _ _ _ e0,
    Cert.Lib.FiniteTest.allReal_of_all x2 _ _ _ _ _ _ e2,
    Cert.Lib.FiniteTest.allReal_of_all x3 _ _ _ _ _ _ e3⟩

end Cert.Bridge

end
-- ==== Proof.lean ====
/-
  A relational graph-convolution layer: the kernel against its reference, on the extended reals.

  Both programs compute, for every node p and feature j,
      max (agg(p, j) · norm(p) + loop(p, j), 0),
  where agg accumulates one message per edge into the edge's destination node and loop is row p of h times one of two
  self-loop weights, chosen by whether the node has an incoming edge.
  * The reference forms an edge's message as the row (h[src] + emb[rel]) times the neighbour weight W. The kernel forms
    h · W once for all nodes in a first launch (blocks of 10000 rows), emb · W on the host, and adds the two gathered rows.
    On real inputs the two messages are equal, because a product with W distributes over the sum of two real rows; the
    precondition makes h, emb and W real-valued. The index words are wrapped and clamped by the same integer operations on
    both sides, and the accumulation into destination nodes is the same operation on equal messages.
  * The reference selects h · loop_weight or h · evolve_loop_weight by the bit "in-degree > 0". The kernel's second launch
    (blocks of 2000 rows) multiplies h by the two weights side by side, takes the two halves, and blends them with the
    bit's number m as m · L + (1 − m) · E; with m the number 0 or 1 this is the selected one on every pair of extended
    reals. The rest — the product with the norm, the sum, the maximum with zero — is the same arithmetic.
  The kernel's run is read from its launch: the buffer contents at the four segment boundaries of @main, the two launches'
  result arrays as whole-array functions of what they were entered at (each block is a block of that function, and the
  blocks cover the array). The reference's run is its operations' composed term. The change of float format that both
  launches apply to their operands is the identity on the extended reals.
-/
import proofs.«147541_j47777216201145_2_alg».proof.Defs
import proofs.«147541_j47777216201145_2_alg».proof.Proof.Gen.Kernel
import proofs.«147541_j47777216201145_2_alg».proof.Proof.Gen.Kernel.Frame
import proofs.«147541_j47777216201145_2_alg».proof.Proof.Gen.KernelIdeal
import proofs.«147541_j47777216201145_2_alg».proof.Proof.Gen.KernelIdeal.Frame
import proofs.«147541_j47777216201145_2_alg».proof.Proof.Gen.ReferenceIdeal
import proofs.«147541_j47777216201145_2_alg».proof.Proof.Gen.Pre_finite_inputs
import proofs.«147541_j47777216201145_2_alg».proof.Proof.RunP
import proofs.«147541_j47777216201145_2_alg».proof.Proof.ReadP
import proofs.«147541_j47777216201145_2_alg».proof.Proof.KernelRun
import proofs.«147541_j47777216201145_2_alg».proof.Proof.KernelValue
import proofs.«147541_j47777216201145_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the reference's value of the arguments. -/
theorem algebraic : Cert.algebraic_KernelIdeal_ReferenceIdeal := by
  intro m ρ m' ρ' hpre hagree
  refine ⟨fun c => Cert.ReferenceIdeal.ReadP.val_main_v32 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · -- the kernel: its result buffer at the last boundary's contents, which on real inputs is that value
    exact (θ_run Cert.KernelIdeal.defs _ _).mono (fun r h c =>
      have hr := Cert.Bridge.real_of_pre _ _ _ _ _ _ _ _ _ (hpre c)
      ⟨(h c).1.trans (Cert.Bridge.result_eq m ρ c hr.1 hr.2.1 hr.2.2), (h c).2⟩)
      (Cert.KernelIdeal.Named.run_named m ρ)
  · -- the reference: its operations' composed term of its own arguments, which agree with the kernel's
    refine (θ_run Cert.ReferenceIdeal.defs _ _).mono (fun r h c => ⟨?_, (h c).2⟩)
      (Cert.ReferenceIdeal.ValueP.run (F := Ideal) m' ρ')
    have e := (h c).1
    rw [Cert.ReferenceIdeal.ReadP.val_main_v32_eq] at e
    obtain ⟨a0, a1, a2, a3, a4, a5, a6, a7, a8⟩ := hagree c
    rw [a0, a1, a2, a3, a4, a5, a6, a7, a8] at e
    exact e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
